-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x128 : Shape := ⟨3, ![4096, 26, 128]⟩
abbrev S_ : Shape := ⟨0, ![]⟩

class Facts : Prop where
  bcast_S_S4096x26x128 : S_.BroadcastsInDim S4096x26x128 (![] : Fin 0 → Fin S4096x26x128.rank)
  reducesTo_S4096x26x128_S_d0_1_2 : S4096x26x128.ReducesTo [0, 1, 2] S_
  h_S_ : 0 < S_.numel

variable [Facts]

def fn {F : FTy → Type} [FloatOps F] (main_arg0 : FVec F S4096x26x128 .f32) : IVec S_ 1 :=
  let main_v0 : FVec F S4096x26x128 .f32 := Host.absf main_arg0
  let main_cst : FVec F S_ .f32 := constant S_ .f32 0x7F800000#32
  let main_v1 : FVec F S4096x26x128 .f32 := broadcastInDim S4096x26x128 ![] bcast_S_S4096x26x128 main_cst
  let main_v2 : IVec S4096x26x128 1 := cmpf .olt main_v0 main_v1
  let main_c : IVec S_ 1 := constantI S_ 1 1#1
  let main_v3 : IVec S_ 1 := (fun x v => Host.reduce IntOp.andi x v reducesTo_S4096x26x128_S_d0_1_2 h_S_) main_v2 main_c
  main_v3
-- ==== Kernel.lean ====
abbrev S4096x26x128 : Shape := ⟨3, ![4096, 26, 128]⟩
abbrev S4096x325 : Shape := ⟨2, ![4096, 325]⟩
abbrev S512x26x128 : Shape := ⟨3, ![512, 26, 128]⟩
abbrev S512x325 : Shape := ⟨2, ![512, 325]⟩
abbrev S128x26x128 : Shape := ⟨3, ![128, 26, 128]⟩
abbrev S128x26x26 : Shape := ⟨3, ![128, 26, 26]⟩
abbrev S128x1x25 : Shape := ⟨3, ![128, 1, 25]⟩
abbrev S128x25 : Shape := ⟨2, ![128, 25]⟩
abbrev S128x1x24 : Shape := ⟨3, ![128, 1, 24]⟩
abbrev S128x24 : Shape := ⟨2, ![128, 24]⟩
abbrev S128x1x23 : Shape := ⟨3, ![128, 1, 23]⟩
abbrev S128x23 : Shape := ⟨2, ![128, 23]⟩
abbrev S128x1x22 : Shape := ⟨3, ![128, 1, 22]⟩
abbrev S128x22 : Shape := ⟨2, ![128, 22]⟩
abbrev S128x1x21 : Shape := ⟨3, ![128, 1, 21]⟩
abbrev S128x21 : Shape := ⟨2, ![128, 21]⟩
abbrev S128x1x20 : Shape := ⟨3, ![128, 1, 20]⟩
abbrev S128x20 : Shape := ⟨2, ![128, 20]⟩
abbrev S128x1x19 : Shape := ⟨3, ![128, 1, 19]⟩
abbrev S128x19 : Shape := ⟨2, ![128, 19]⟩
abbrev S128x1x18 : Shape := ⟨3, ![128, 1, 18]⟩
abbrev S128x18 : Shape := ⟨2, ![128, 18]⟩
abbrev S128x1x17 : Shape := ⟨3, ![128, 1, 17]⟩
abbrev S128x17 : Shape := ⟨2, ![128, 17]⟩
abbrev S128x1x16 : Shape := ⟨3, ![128, 1, 16]⟩
abbrev S128x16 : Shape := ⟨2, ![128, 16]⟩
abbrev S128x1x15 : Shape := ⟨3, ![128, 1, 15]⟩
abbrev S128x15 : Shape := ⟨2, ![128, 15]⟩
abbrev S128x1x14 : Shape := ⟨3, ![128, 1, 14]⟩
abbrev S128x14 : Shape := ⟨2, ![128, 14]⟩
abbrev S128x1x13 : Shape := ⟨3, ![128, 1, 13]⟩
abbrev S128x13 : Shape := ⟨2, ![128, 13]⟩
abbrev S128x1x12 : Shape := ⟨3, ![128, 1, 12]⟩
abbrev S128x12 : Shape := ⟨2, ![128, 12]⟩
abbrev S128x1x11 : Shape := ⟨3, ![128, 1, 11]⟩
abbrev S128x11 : Shape := ⟨2, ![128, 11]⟩
abbrev S128x1x10 : Shape := ⟨3, ![128, 1, 10]⟩
abbrev S128x10 : Shape := ⟨2, ![128, 10]⟩
abbrev S128x1x9 : Shape := ⟨3, ![128, 1, 9]⟩
abbrev S128x9 : Shape := ⟨2, ![128, 9]⟩
abbrev S128x1x8 : Shape := ⟨3, ![128, 1, 8]⟩
abbrev S128x8 : Shape := ⟨2, ![128, 8]⟩
abbrev S128x1x7 : Shape := ⟨3, ![128, 1, 7]⟩
abbrev S128x7 : Shape := ⟨2, ![128, 7]⟩
abbrev S128x1x6 : Shape := ⟨3, ![128, 1, 6]⟩
abbrev S128x6 : Shape := ⟨2, ![128, 6]⟩
abbrev S128x1x5 : Shape := ⟨3, ![128, 1, 5]⟩
abbrev S128x5 : Shape := ⟨2, ![128, 5]⟩
abbrev S128x1x4 : Shape := ⟨3, ![128, 1, 4]⟩
abbrev S128x4 : Shape := ⟨2, ![128, 4]⟩
abbrev S128x1x3 : Shape := ⟨3, ![128, 1, 3]⟩
abbrev S128x3 : Shape := ⟨2, ![128, 3]⟩
abbrev S128x1x2 : Shape := ⟨3, ![128, 1, 2]⟩
abbrev S128x2 : Shape := ⟨2, ![128, 2]⟩
abbrev S128x1x1 : Shape := ⟨3, ![128, 1, 1]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x26x128, .f32⟩
  | .hbm, ⟨1, _⟩ => ⟨S4096x325, .f32⟩
  | .local _ .vmem, ⟨0, _⟩ => ⟨S512x26x128, .f32⟩
  | .local _ .vmem, ⟨1, _⟩ => ⟨S512x26x128, .f32⟩
  | .local _ .vmem, ⟨2, _⟩ => ⟨S512x325, .f32⟩
  | .local _ .vmem, ⟨3, _⟩ => ⟨S512x325, .f32⟩
  | _, _ => ⟨S4096x26x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x26x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x325 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x26x128_S128x26x128_0_0_0 : ∀ a, (![0, 0, 0] : Fin 3 → Nat) a + S128x26x128.size a ≤ S512x26x128.size a
  h_S128x26x128 : 0 < S128x26x128.numel
  slices_S128x26x26_o0_0_1_S128x1x25 : S128x26x26.Slices ![0, 0, 1] S128x1x25
  shapeCasts_S128x1x25_S128x25 : S128x1x25.ShapeCasts S128x25
  inb_S512x325_S128x25_0_0 : ∀ a, (![0, 0] : Fin 2 → Nat) a + S128x25.size a ≤ S512x325.size a
  h_S128x25 : 0 < S128x25.numel
  slices_S128x26x26_o0_1_2_S128x1x24 : S128x26x26.Slices ![0, 1, 2] S128x1x24
  shapeCasts_S128x1x24_S128x24 : S128x1x24.ShapeCasts S128x24
  inb_S512x325_S128x24_0_25 : ∀ a, (![0, 25] : Fin 2 → Nat) a + S128x24.size a ≤ S512x325.size a
  h_S128x24 : 0 < S128x24.numel
  slices_S128x26x26_o0_2_3_S128x1x23 : S128x26x26.Slices ![0, 2, 3] S128x1x23
  shapeCasts_S128x1x23_S128x23 : S128x1x23.ShapeCasts S128x23
  inb_S512x325_S128x23_0_49 : ∀ a, (![0, 49] : Fin 2 → Nat) a + S128x23.size a ≤ S512x325.size a
  h_S128x23 : 0 < S128x23.numel
  slices_S128x26x26_o0_3_4_S128x1x22 : S128x26x26.Slices ![0, 3, 4] S128x1x22
  shapeCasts_S128x1x22_S128x22 : S128x1x22.ShapeCasts S128x22
  inb_S512x325_S128x22_0_72 : ∀ a, (![0, 72] : Fin 2 → Nat) a + S128x22.size a ≤ S512x325.size a
  h_S128x22 : 0 < S128x22.numel
  slices_S128x26x26_o0_4_5_S128x1x21 : S128x26x26.Slices ![0, 4, 5] S128x1x21
  shapeCasts_S128x1x21_S128x21 : S128x1x21.ShapeCasts S128x21
  inb_S512x325_S128x21_0_94 : ∀ a, (![0, 94] : Fin 2 → Nat) a + S128x21.size a ≤ S512x325.size a
  h_S128x21 : 0 < S128x21.numel
  slices_S128x26x26_o0_5_6_S128x1x20 : S128x26x26.Slices ![0, 5, 6] S128x1x20
  shapeCasts_S128x1x20_S128x20 : S128x1x20.ShapeCasts S128x20
  inb_S512x325_S128x20_0_115 : ∀ a, (![0, 115] : Fin 2 → Nat) a + S128x20.size a ≤ S512x325.size a
  h_S128x20 : 0 < S128x20.numel
  slices_S128x26x26_o0_6_7_S128x1x19 : S128x26x26.Slices ![0, 6, 7] S128x1x19
  shapeCasts_S128x1x19_S128x19 : S128x1x19.ShapeCasts S128x19
  inb_S512x325_S128x19_0_135 : ∀ a, (![0, 135] : Fin 2 → Nat) a + S128x19.size a ≤ S512x325.size a
  h_S128x19 : 0 < S128x19.numel
  slices_S128x26x26_o0_7_8_S128x1x18 : S128x26x26.Slices ![0, 7, 8] S128x1x18
  shapeCasts_S128x1x18_S128x18 : S128x1x18.ShapeCasts S128x18
  inb_S512x325_S128x18_0_154 : ∀ a, (![0, 154] : Fin 2 → Nat) a + S128x18.size a ≤ S512x325.size a
  h_S128x18 : 0 < S128x18.numel
  slices_S128x26x26_o0_8_9_S128x1x17 : S128x26x26.Slices ![0, 8, 9] S128x1x17
  shapeCasts_S128x1x17_S128x17 : S128x1x17.ShapeCasts S128x17
  inb_S512x325_S128x17_0_172 : ∀ a, (![0, 172] : Fin 2 → Nat) a + S128x17.size a ≤ S512x325.size a
  h_S128x17 : 0 < S128x17.numel
  slices_S128x26x26_o0_9_10_S128x1x16 : S128x26x26.Slices ![0, 9, 10] S128x1x16
  shapeCasts_S128x1x16_S128x16 : S128x1x16.ShapeCasts S128x16
  inb_S512x325_S128x16_0_189 : ∀ a, (![0, 189] : Fin 2 → Nat) a + S128x16.size a ≤ S512x325.size a
  h_S128x16 : 0 < S128x16.numel
  slices_S128x26x26_o0_10_11_S128x1x15 : S128x26x26.Slices ![0, 10, 11] S128x1x15
  shapeCasts_S128x1x15_S128x15 : S128x1x15.ShapeCasts S128x15
  inb_S512x325_S128x15_0_205 : ∀ a, (![0, 205] : Fin 2 → Nat) a + S128x15.size a ≤ S512x325.size a
  h_S128x15 : 0 < S128x15.numel
  slices_S128x26x26_o0_11_12_S128x1x14 : S128x26x26.Slices ![0, 11, 12] S128x1x14
  shapeCasts_S128x1x14_S128x14 : S128x1x14.ShapeCasts S128x14
  inb_S512x325_S128x14_0_220 : ∀ a, (![0, 220] : Fin 2 → Nat) a + S128x14.size a ≤ S512x325.size a
  h_S128x14 : 0 < S128x14.numel
  slices_S128x26x26_o0_12_13_S128x1x13 : S128x26x26.Slices ![0, 12, 13] S128x1x13
  shapeCasts_S128x1x13_S128x13 : S128x1x13.ShapeCasts S128x13
  inb_S512x325_S128x13_0_234 : ∀ a, (![0, 234] : Fin 2 → Nat) a + S128x13.size a ≤ S512x325.size a
  h_S128x13 : 0 < S128x13.numel
  slices_S128x26x26_o0_13_14_S128x1x12 : S128x26x26.Slices ![0, 13, 14] S128x1x12
  shapeCasts_S128x1x12_S128x12 : S128x1x12.ShapeCasts S128x12
  inb_S512x325_S128x12_0_247 : ∀ a, (![0, 247] : Fin 2 → Nat) a + S128x12.size a ≤ S512x325.size a
  h_S128x12 : 0 < S128x12.numel
  slices_S128x26x26_o0_14_15_S128x1x11 : S128x26x26.Slices ![0, 14, 15] S128x1x11
  shapeCasts_S128x1x11_S128x11 : S128x1x11.ShapeCasts S128x11
  inb_S512x325_S128x11_0_259 : ∀ a, (![0, 259] : Fin 2 → Nat) a + S128x11.size a ≤ S512x325.size a
  h_S128x11 : 0 < S128x11.numel
  slices_S128x26x26_o0_15_16_S128x1x10 : S128x26x26.Slices ![0, 15, 16] S128x1x10
  shapeCasts_S128x1x10_S128x10 : S128x1x10.ShapeCasts S128x10
  inb_S512x325_S128x10_0_270 : ∀ a, (![0, 270] : Fin 2 → Nat) a + S128x10.size a ≤ S512x325.size a
  h_S128x10 : 0 < S128x10.numel
  slices_S128x26x26_o0_16_17_S128x1x9 : S128x26x26.Slices ![0, 16, 17] S128x1x9
  shapeCasts_S128x1x9_S128x9 : S128x1x9.ShapeCasts S128x9
  inb_S512x325_S128x9_0_280 : ∀ a, (![0, 280] : Fin 2 → Nat) a + S128x9.size a ≤ S512x325.size a
  h_S128x9 : 0 < S128x9.numel
  slices_S128x26x26_o0_17_18_S128x1x8 : S128x26x26.Slices ![0, 17, 18] S128x1x8
  shapeCasts_S128x1x8_S128x8 : S128x1x8.ShapeCasts S128x8
  inb_S512x325_S128x8_0_289 : ∀ a, (![0, 289] : Fin 2 → Nat) a + S128x8.size a ≤ S512x325.size a
  h_S128x8 : 0 < S128x8.numel
  slices_S128x26x26_o0_18_19_S128x1x7 : S128x26x26.Slices ![0, 18, 19] S128x1x7
  shapeCasts_S128x1x7_S128x7 : S128x1x7.ShapeCasts S128x7
  inb_S512x325_S128x7_0_297 : ∀ a, (![0, 297] : Fin 2 → Nat) a + S128x7.size a ≤ S512x325.size a
  h_S128x7 : 0 < S128x7.numel
  slices_S128x26x26_o0_19_20_S128x1x6 : S128x26x26.Slices ![0, 19, 20] S128x1x6
  shapeCasts_S128x1x6_S128x6 : S128x1x6.ShapeCasts S128x6
  inb_S512x325_S128x6_0_304 : ∀ a, (![0, 304] : Fin 2 → Nat) a + S128x6.size a ≤ S512x325.size a
  h_S128x6 : 0 < S128x6.numel
  slices_S128x26x26_o0_20_21_S128x1x5 : S128x26x26.Slices ![0, 20, 21] S128x1x5
  shapeCasts_S128x1x5_S128x5 : S128x1x5.ShapeCasts S128x5
  inb_S512x325_S128x5_0_310 : ∀ a, (![0, 310] : Fin 2 → Nat) a + S128x5.size a ≤ S512x325.size a
  h_S128x5 : 0 < S128x5.numel
  slices_S128x26x26_o0_21_22_S128x1x4 : S128x26x26.Slices ![0, 21, 22] S128x1x4
  shapeCasts_S128x1x4_S128x4 : S128x1x4.ShapeCasts S128x4
  inb_S512x325_S128x4_0_315 : ∀ a, (![0, 315] : Fin 2 → Nat) a + S128x4.size a ≤ S512x325.size a
  h_S128x4 : 0 < S128x4.numel
  slices_S128x26x26_o0_22_23_S128x1x3 : S128x26x26.Slices ![0, 22, 23] S128x1x3
  shapeCasts_S128x1x3_S128x3 : S128x1x3.ShapeCasts S128x3
  inb_S512x325_S128x3_0_319 : ∀ a, (![0, 319] : Fin 2 → Nat) a + S128x3.size a ≤ S512x325.size a
  h_S128x3 : 0 < S128x3.numel
  slices_S128x26x26_o0_23_24_S128x1x2 : S128x26x26.Slices ![0, 23, 24] S128x1x2
  shapeCasts_S128x1x2_S128x2 : S128x1x2.ShapeCasts S128x2
  inb_S512x325_S128x2_0_322 : ∀ a, (![0, 322] : Fin 2 → Nat) a + S128x2.size a ≤ S512x325.size a
  h_S128x2 : 0 < S128x2.numel
  slices_S128x26x26_o0_24_25_S128x1x1 : S128x26x26.Slices ![0, 24, 25] S128x1x1
  shapeCasts_S128x1x1_S128x1 : S128x1x1.ShapeCasts S128x1
  inb_S512x325_S128x1_0_324 : ∀ a, (![0, 324] : Fin 2 → Nat) a + S128x1.size a ≤ S512x325.size a
  h_S128x1 : 0 < S128x1.numel
  inb_S512x26x128_S128x26x128_128_0_0 : ∀ a, (![128, 0, 0] : Fin 3 → Nat) a + S128x26x128.size a ≤ S512x26x128.size a
  inb_S512x325_S128x25_128_0 : ∀ a, (![128, 0] : Fin 2 → Nat) a + S128x25.size a ≤ S512x325.size a
  inb_S512x325_S128x24_128_25 : ∀ a, (![128, 25] : Fin 2 → Nat) a + S128x24.size a ≤ S512x325.size a
  inb_S512x325_S128x23_128_49 : ∀ a, (![128, 49] : Fin 2 → Nat) a + S128x23.size a ≤ S512x325.size a
  inb_S512x325_S128x22_128_72 : ∀ a, (![128, 72] : Fin 2 → Nat) a + S128x22.size a ≤ S512x325.size a
  inb_S512x325_S128x21_128_94 : ∀ a, (![128, 94] : Fin 2 → Nat) a + S128x21.size a ≤ S512x325.size a
  inb_S512x325_S128x20_128_115 : ∀ a, (![128, 115] : Fin 2 → Nat) a + S128x20.size a ≤ S512x325.size a
  inb_S512x325_S128x19_128_135 : ∀ a, (![128, 135] : Fin 2 → Nat) a + S128x19.size a ≤ S512x325.size a
  inb_S512x325_S128x18_128_154 : ∀ a, (![128, 154] : Fin 2 → Nat) a + S128x18.size a ≤ S512x325.size a
  inb_S512x325_S128x17_128_172 : ∀ a, (![128, 172] : Fin 2 → Nat) a + S128x17.size a ≤ S512x325.size a
  inb_S512x325_S128x16_128_189 : ∀ a, (![128, 189] : Fin 2 → Nat) a + S128x16.size a ≤ S512x325.size a
  inb_S512x325_S128x15_128_205 : ∀ a, (![128, 205] : Fin 2 → Nat) a + S128x15.size a ≤ S512x325.size a
  inb_S512x325_S128x14_128_220 : ∀ a, (![128, 220] : Fin 2 → Nat) a + S128x14.size a ≤ S512x325.size a
  inb_S512x325_S128x13_128_234 : ∀ a, (![128, 234] : Fin 2 → Nat) a + S128x13.size a ≤ S512x325.size a
  inb_S512x325_S128x12_128_247 : ∀ a, (![128, 247] : Fin 2 → Nat) a + S128x12.size a ≤ S512x325.size a
  inb_S512x325_S128x11_128_259 : ∀ a, (![128, 259] : Fin 2 → Nat) a + S128x11.size a ≤ S512x325.size a
  inb_S512x325_S128x10_128_270 : ∀ a, (![128, 270] : Fin 2 → Nat) a + S128x10.size a ≤ S512x325.size a
  inb_S512x325_S128x9_128_280 : ∀ a, (![128, 280] : Fin 2 → Nat) a + S128x9.size a ≤ S512x325.size a
  inb_S512x325_S128x8_128_289 : ∀ a, (![128, 289] : Fin 2 → Nat) a + S128x8.size a ≤ S512x325.size a
  inb_S512x325_S128x7_128_297 : ∀ a, (![128, 297] : Fin 2 → Nat) a + S128x7.size a ≤ S512x325.size a
  inb_S512x325_S128x6_128_304 : ∀ a, (![128, 304] : Fin 2 → Nat) a + S128x6.size a ≤ S512x325.size a
  inb_S512x325_S128x5_128_310 : ∀ a, (![128, 310] : Fin 2 → Nat) a + S128x5.size a ≤ S512x325.size a
  inb_S512x325_S128x4_128_315 : ∀ a, (![128, 315] : Fin 2 → Nat) a + S128x4.size a ≤ S512x325.size a
  inb_S512x325_S128x3_128_319 : ∀ a, (![128, 319] : Fin 2 → Nat) a + S128x3.size a ≤ S512x325.size a
  inb_S512x325_S128x2_128_322 : ∀ a, (![128, 322] : Fin 2 → Nat) a + S128x2.size a ≤ S512x325.size a
  inb_S512x325_S128x1_128_324 : ∀ a, (![128, 324] : Fin 2 → Nat) a + S128x1.size a ≤ S512x325.size a
  inb_S512x26x128_S128x26x128_256_0_0 : ∀ a, (![256, 0, 0] : Fin 3 → Nat) a + S128x26x128.size a ≤ S512x26x128.size a
  inb_S512x325_S128x25_256_0 : ∀ a, (![256, 0] : Fin 2 → Nat) a + S128x25.size a ≤ S512x325.size a
  inb_S512x325_S128x24_256_25 : ∀ a, (![256, 25] : Fin 2 → Nat) a + S128x24.size a ≤ S512x325.size a
  inb_S512x325_S128x23_256_49 : ∀ a, (![256, 49] : Fin 2 → Nat) a + S128x23.size a ≤ S512x325.size a
  inb_S512x325_S128x22_256_72 : ∀ a, (![256, 72] : Fin 2 → Nat) a + S128x22.size a ≤ S512x325.size a
  inb_S512x325_S128x21_256_94 : ∀ a, (![256, 94] : Fin 2 → Nat) a + S128x21.size a ≤ S512x325.size a
  inb_S512x325_S128x20_256_115 : ∀ a, (![256, 115] : Fin 2 → Nat) a + S128x20.size a ≤ S512x325.size a
  inb_S512x325_S128x19_256_135 : ∀ a, (![256, 135] : Fin 2 → Nat) a + S128x19.size a ≤ S512x325.size a
  inb_S512x325_S128x18_256_154 : ∀ a, (![256, 154] : Fin 2 → Nat) a + S128x18.size a ≤ S512x325.size a
  inb_S512x325_S128x17_256_172 : ∀ a, (![256, 172] : Fin 2 → Nat) a + S128x17.size a ≤ S512x325.size a
  inb_S512x325_S128x16_256_189 : ∀ a, (![256, 189] : Fin 2 → Nat) a + S128x16.size a ≤ S512x325.size a
  inb_S512x325_S128x15_256_205 : ∀ a, (![256, 205] : Fin 2 → Nat) a + S128x15.size a ≤ S512x325.size a
  inb_S512x325_S128x14_256_220 : ∀ a, (![256, 220] : Fin 2 → Nat) a + S128x14.size a ≤ S512x325.size a
  inb_S512x325_S128x13_256_234 : ∀ a, (![256, 234] : Fin 2 → Nat) a + S128x13.size a ≤ S512x325.size a
  inb_S512x325_S128x12_256_247 : ∀ a, (![256, 247] : Fin 2 → Nat) a + S128x12.size a ≤ S512x325.size a
  inb_S512x325_S128x11_256_259 : ∀ a, (![256, 259] : Fin 2 → Nat) a + S128x11.size a ≤ S512x325.size a
  inb_S512x325_S128x10_256_270 : ∀ a, (![256, 270] : Fin 2 → Nat) a + S128x10.size a ≤ S512x325.size a
  inb_S512x325_S128x9_256_280 : ∀ a, (![256, 280] : Fin 2 → Nat) a + S128x9.size a ≤ S512x325.size a
  inb_S512x325_S128x8_256_289 : ∀ a, (![256, 289] : Fin 2 → Nat) a + S128x8.size a ≤ S512x325.size a
  inb_S512x325_S128x7_256_297 : ∀ a, (![256, 297] : Fin 2 → Nat) a + S128x7.size a ≤ S512x325.size a
  inb_S512x325_S128x6_256_304 : ∀ a, (![256, 304] : Fin 2 → Nat) a + S128x6.size a ≤ S512x325.size a
  inb_S512x325_S128x5_256_310 : ∀ a, (![256, 310] : Fin 2 → Nat) a + S128x5.size a ≤ S512x325.size a
  inb_S512x325_S128x4_256_315 : ∀ a, (![256, 315] : Fin 2 → Nat) a + S128x4.size a ≤ S512x325.size a
  inb_S512x325_S128x3_256_319 : ∀ a, (![256, 319] : Fin 2 → Nat) a + S128x3.size a ≤ S512x325.size a
  inb_S512x325_S128x2_256_322 : ∀ a, (![256, 322] : Fin 2 → Nat) a + S128x2.size a ≤ S512x325.size a
  inb_S512x325_S128x1_256_324 : ∀ a, (![256, 324] : Fin 2 → Nat) a + S128x1.size a ≤ S512x325.size a
  inb_S512x26x128_S128x26x128_384_0_0 : ∀ a, (![384, 0, 0] : Fin 3 → Nat) a + S128x26x128.size a ≤ S512x26x128.size a
  inb_S512x325_S128x25_384_0 : ∀ a, (![384, 0] : Fin 2 → Nat) a + S128x25.size a ≤ S512x325.size a
  inb_S512x325_S128x24_384_25 : ∀ a, (![384, 25] : Fin 2 → Nat) a + S128x24.size a ≤ S512x325.size a
  inb_S512x325_S128x23_384_49 : ∀ a, (![384, 49] : Fin 2 → Nat) a + S128x23.size a ≤ S512x325.size a
  inb_S512x325_S128x22_384_72 : ∀ a, (![384, 72] : Fin 2 → Nat) a + S128x22.size a ≤ S512x325.size a
  inb_S512x325_S128x21_384_94 : ∀ a, (![384, 94] : Fin 2 → Nat) a + S128x21.size a ≤ S512x325.size a
  inb_S512x325_S128x20_384_115 : ∀ a, (![384, 115] : Fin 2 → Nat) a + S128x20.size a ≤ S512x325.size a
  inb_S512x325_S128x19_384_135 : ∀ a, (![384, 135] : Fin 2 → Nat) a + S128x19.size a ≤ S512x325.size a
  inb_S512x325_S128x18_384_154 : ∀ a, (![384, 154] : Fin 2 → Nat) a + S128x18.size a ≤ S512x325.size a
  inb_S512x325_S128x17_384_172 : ∀ a, (![384, 172] : Fin 2 → Nat) a + S128x17.size a ≤ S512x325.size a
  inb_S512x325_S128x16_384_189 : ∀ a, (![384, 189] : Fin 2 → Nat) a + S128x16.size a ≤ S512x325.size a
  inb_S512x325_S128x15_384_205 : ∀ a, (![384, 205] : Fin 2 → Nat) a + S128x15.size a ≤ S512x325.size a
  inb_S512x325_S128x14_384_220 : ∀ a, (![384, 220] : Fin 2 → Nat) a + S128x14.size a ≤ S512x325.size a
  inb_S512x325_S128x13_384_234 : ∀ a, (![384, 234] : Fin 2 → Nat) a + S128x13.size a ≤ S512x325.size a
  inb_S512x325_S128x12_384_247 : ∀ a, (![384, 247] : Fin 2 → Nat) a + S128x12.size a ≤ S512x325.size a
  inb_S512x325_S128x11_384_259 : ∀ a, (![384, 259] : Fin 2 → Nat) a + S128x11.size a ≤ S512x325.size a
  inb_S512x325_S128x10_384_270 : ∀ a, (![384, 270] : Fin 2 → Nat) a + S128x10.size a ≤ S512x325.size a
  inb_S512x325_S128x9_384_280 : ∀ a, (![384, 280] : Fin 2 → Nat) a + S128x9.size a ≤ S512x325.size a
  inb_S512x325_S128x8_384_289 : ∀ a, (![384, 289] : Fin 2 → Nat) a + S128x8.size a ≤ S512x325.size a
  inb_S512x325_S128x7_384_297 : ∀ a, (![384, 297] : Fin 2 → Nat) a + S128x7.size a ≤ S512x325.size a
  inb_S512x325_S128x6_384_304 : ∀ a, (![384, 304] : Fin 2 → Nat) a + S128x6.size a ≤ S512x325.size a
  inb_S512x325_S128x5_384_310 : ∀ a, (![384, 310] : Fin 2 → Nat) a + S128x5.size a ≤ S512x325.size a
  inb_S512x325_S128x4_384_315 : ∀ a, (![384, 315] : Fin 2 → Nat) a + S128x4.size a ≤ S512x325.size a
  inb_S512x325_S128x3_384_319 : ∀ a, (![384, 319] : Fin 2 → Nat) a + S128x3.size a ≤ S512x325.size a
  inb_S512x325_S128x2_384_322 : ∀ a, (![384, 322] : Fin 2 → Nat) a + S128x2.size a ≤ S512x325.size a
  inb_S512x325_S128x1_384_324 : ∀ a, (![384, 324] : Fin 2 → Nat) a + S128x1.size a ≤ S512x325.size a
  dot_S128x26x128_S128x26x128_S128x26x26_2_2_1_1_0_0_wf : DotDims.WF S128x26x128 S128x26x128 S128x26x26 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x26x128.size a ≤ S4096x26x128.size a
  hwx0_0 : ∀ i : grid0.Coords, EltTy.bits .f32 = 32 ∨ (Rect.block (s := S4096x26x128) S512x26x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x325.size a ≤ S4096x325.size a
  hwx0_1 : ∀ i : grid0.Coords, EltTy.bits .f32 = 32 ∨ (Rect.block (s := S4096x325) S512x325.size (cc0_transform_1 i) (hinb0_1 i)).WholeWords (EltTy.packing .f32)

variable [Facts₀]

def dot_S128x26x128_S128x26x128_S128x26x26_2_2_1_1_0_0 : DotDims S128x26x128 S128x26x128 S128x26x26 where
  lhsContracting := [2]
  rhsContracting := [2]
  lhsNonContracting := [1]
  rhsNonContracting := [1]
  lhsBatch := [0]
  rhsBatch := [0]
  wf := dot_S128x26x128_S128x26x128_S128x26x26_2_2_1_1_0_0_wf

abbrev win0_0 : Pipeline.Window sig grid0 :=
  Pipeline.Window.ofSpec (Memref.whole main_arg0) S512x26x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x325.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x26x128 : Shape := ⟨3, ![4096, 26, 128]⟩
abbrev S325 : Shape := ⟨1, ![325]⟩
abbrev S_ : Shape := ⟨0, ![]⟩
abbrev S325x1 : Shape := ⟨2, ![325, 1]⟩
abbrev S1 : Shape := ⟨1, ![1]⟩
abbrev S1x1 : Shape := ⟨2, ![1, 1]⟩
abbrev S4096x325x128 : Shape := ⟨3, ![4096, 325, 128]⟩
abbrev S4096x325 : Shape := ⟨2, ![4096, 325]⟩

abbrev nBuf : Space → Nat
  | .hbm => 52
  | .vmem => 0
  | .smem => 0
  | _ => 0

abbrev bufTy : (tb : Table) → Fin (tcTables nBuf tb) → BufTy
  | .hbm, ⟨0, _⟩ => ⟨S4096x26x128, .f32⟩
  | .hbm, ⟨1, _⟩ => ⟨S325, .i32⟩
  | .hbm, ⟨2, _⟩ => ⟨S325, .i32⟩
  | .hbm, ⟨3, _⟩ => ⟨S_, .i32⟩
  | .hbm, ⟨4, _⟩ => ⟨S325, .i32⟩
  | .hbm, ⟨5, _⟩ => ⟨S325, .i1⟩
  | .hbm, ⟨6, _⟩ => ⟨S_, .i32⟩
  | .hbm, ⟨7, _⟩ => ⟨S325, .i32⟩
  | .hbm, ⟨8, _⟩ => ⟨S325, .i32⟩
  | .hbm, ⟨9, _⟩ => ⟨S325, .i32⟩
  | .hbm, ⟨10, _⟩ => ⟨S325x1, .i32⟩
  | .hbm, ⟨11, _⟩ => ⟨S1, .i32⟩
  | .hbm, ⟨12, _⟩ => ⟨S_, .i32⟩
  | .hbm, ⟨13, _⟩ => ⟨S325x1, .i32⟩
  | .hbm, ⟨14, _⟩ => ⟨S325x1, .i1⟩
  | .hbm, ⟨15, _⟩ => ⟨S1x1, .i32⟩
  | .hbm, ⟨16, _⟩ => ⟨S325x1, .i32⟩
  | .hbm, ⟨17, _⟩ => ⟨S325x1, .i1⟩
  | .hbm, ⟨18, _⟩ => ⟨S325x1, .i1⟩
  | .hbm, ⟨19, _⟩ => ⟨S_, .i1⟩
  | .hbm, ⟨20, _⟩ => ⟨S325, .i1⟩
  | .hbm, ⟨21, _⟩ => ⟨S4096x325x128, .f32⟩
  | .hbm, ⟨22, _⟩ => ⟨S4096x325x128, .i1⟩
  | .hbm, ⟨23, _⟩ => ⟨S_, .f32⟩
  | .hbm, ⟨24, _⟩ => ⟨S4096x325x128, .f32⟩
  | .hbm, ⟨25, _⟩ => ⟨S4096x325x128, .f32⟩
  | .hbm, ⟨26, _⟩ => ⟨S_, .i32⟩
  | .hbm, ⟨27, _⟩ => ⟨S325, .i32⟩
  | .hbm, ⟨28, _⟩ => ⟨S325, .i1⟩
  | .hbm, ⟨29, _⟩ => ⟨S_, .i32⟩
  | .hbm, ⟨30, _⟩ => ⟨S325, .i32⟩
  | .hbm, ⟨31, _⟩ => ⟨S325, .i32⟩
  | .hbm, ⟨32, _⟩ => ⟨S325, .i32⟩
  | .hbm, ⟨33, _⟩ => ⟨S325x1, .i32⟩
  | .hbm, ⟨34, _⟩ => ⟨S1, .i32⟩
  | .hbm, ⟨35, _⟩ => ⟨S_, .i32⟩
  | .hbm, ⟨36, _⟩ => ⟨S325x1, .i32⟩
  | .hbm, ⟨37, _⟩ => ⟨S325x1, .i1⟩
  | .hbm, ⟨38, _⟩ => ⟨S1x1, .i32⟩
  | .hbm, ⟨39, _⟩ => ⟨S325x1, .i32⟩
  | .hbm, ⟨40, _⟩ => ⟨S325x1, .i1⟩
  | .hbm, ⟨41, _⟩ => ⟨S325x1, .i1⟩
  | .hbm, ⟨42, _⟩ => ⟨S_, .i1⟩
  | .hbm, ⟨43, _⟩ => ⟨S325, .i1⟩
  | .hbm, ⟨44, _⟩ => ⟨S4096x325x128, .f32⟩
  | .hbm, ⟨45, _⟩ => ⟨S4096x325x128, .i1⟩
  | .hbm, ⟨46, _⟩ => ⟨S_, .f32⟩
  | .hbm, ⟨47, _⟩ => ⟨S4096x325x128, .f32⟩
  | .hbm, ⟨48, _⟩ => ⟨S4096x325x128, .f32⟩
  | .hbm, ⟨49, _⟩ => ⟨S4096x325x128, .f32⟩
  | .hbm, ⟨50, _⟩ => ⟨S_, .f32⟩
  | .hbm, ⟨51, _⟩ => ⟨S4096x325, .f32⟩
  | _, _ => ⟨S4096x26x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_cst : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S325 : S_.BroadcastsInDim S325 (![] : Fin 0 → Fin S325.rank)
  bcast_S325_S325x1_0 : S325.BroadcastsInDim S325x1 (![0] : Fin 1 → Fin S325x1.rank)
  bcast_S_S325x1 : S_.BroadcastsInDim S325x1 (![] : Fin 0 → Fin S325x1.rank)
  bcast_S1_S1x1_1 : S1.BroadcastsInDim S1x1 (![1] : Fin 1 → Fin S1x1.rank)
  bcast_S1x1_S325x1_0_1 : S1x1.BroadcastsInDim S325x1 (![0, 1] : Fin 2 → Fin S325x1.rank)
  reducesTo_S325x1_S325_d1 : S325x1.ReducesTo [1] S325
  h_S_ : 0 < S_.numel
  bcast_S325_S4096x325x128_1 : S325.BroadcastsInDim S4096x325x128 (![1] : Fin 1 → Fin S4096x325x128.rank)
  bcast_S_S4096x325x128 : S_.BroadcastsInDim S4096x325x128 (![] : Fin 0 → Fin S4096x325x128.rank)
  reducesTo_S4096x325x128_S4096x325_d2 : S4096x325x128.ReducesTo [2] S4096x325
  gather_S4096x26x128_S325x1_S4096x325x128_02_1_n_n_1_1_40961128_wf : GatherDims.WF S4096x26x128 S325x1 S4096x325x128 [0, 2] [1] [] [1] [] 1 ![4096, 1, 128]

variable [Facts₀]

def gather_S4096x26x128_S325x1_S4096x325x128_02_1_n_n_1_1_40961128 : GatherDims S4096x26x128 S325x1 S4096x325x128 where
  offsetDims := [0, 2]
  collapsedSliceDims := [1]
  operandBatchingDims := []
  startIndicesBatchingDims := []
  startIndexMap := [1]
  indexVectorDim := 1
  sliceSizes := ![4096, 1, 128]
  wf := gather_S4096x26x128_S325x1_S4096x325x128_02_1_n_n_1_1_40961128_wf

class Facts : Prop extends Facts₀ where

variable [Facts]
-- ==== Proof.PairSpec.lean ====
/-
  The specification. Each batch row holds 26 field vectors of 128 numbers; the result holds, for every
  unordered pair of distinct fields (i, j), i < j, the inner product of field i with field j. The 325 pairs are
  listed row by row: first (0,1) … (0,25), then (1,2) … (1,25), and so on, so the pairs whose smaller field is
  i start at position i·25 − i·(i−1)/2 = i·(51 − i)/2 and there are 25 − i of them.
-/
import Idealize.ShloMosaic.PureOps.Ideal
import Idealize.ShloMosaic.Lib.ValueIdx

noncomputable section

namespace Cert.PairSpec

open Idealize.ShloMosaic Idealize.ShloMosaic.ValueIdx

/-- Position of the first pair whose smaller field is `i`: 25 + 24 + … + (26 − i) = i·(51 − i)/2. -/
def rowStart (i : ℕ) : ℕ := i * (51 - i) / 2

/-- The smaller field of pair number `p`: how many of the row starts 1 … 24 are at or before `p`. -/
def pairRowN (p : ℕ) : ℕ := ((List.range 24).filter fun i => decide (rowStart (i + 1) ≤ p)).length

/-- The larger field of pair number `p`: its offset inside its row, past the smaller field. -/
def pairColN (p : ℕ) : ℕ := p - rowStart (pairRowN p) + pairRowN p + 1

theorem pairRowN_lt : ∀ p : Fin 325, pairRowN p.val < 26 := by decide +kernel
theorem pairColN_lt : ∀ p : Fin 325, pairColN p.val < 26 := by decide +kernel

def pairRow (p : Fin 325) : Fin 26 := ⟨pairRowN p.val, pairRowN_lt p⟩
def pairCol (p : Fin 325) : Fin 26 := ⟨pairColN p.val, pairColN_lt p⟩

/-- Inside row `i` (0 ≤ i < 25), the pair at offset `k` (0 ≤ k < 25 − i) is (i, i + 1 + k). -/
theorem pair_at : ∀ (i : Fin 25) (k : Fin 25), k.val < 25 - i.val →
    pairRowN (rowStart i.val + k.val) = i.val ∧ pairColN (rowStart i.val + k.val) = i.val + 1 + k.val := by
  decide +kernel

/-- Every pair number is below 325 inside its row: the rows fill 0 … 324. -/
theorem pair_pos_lt : ∀ (i : Fin 25) (k : Fin 25), k.val < 25 - i.val → rowStart i.val + k.val < 325 := by
  decide +kernel

/-- The inner product of fields `pairRow p` and `pairCol p` of batch row `b`, over an array of `n` batch rows. -/
def pairDot {n : ℕ} (x : (⟨3, ![n, 26, 128]⟩ : Shape).Idx → EReal) (b : Fin n) (p : Fin 325) : EReal :=
  ∑ d : Fin 128, x (ix3 b (pairRow p) d) * x (ix3 b (pairCol p) d)

/-- The whole result as one function of the argument array: entry (b, p) is pair `p`'s inner product in batch row `b`. -/
def pairDots {n : ℕ} (x : (⟨3, ![n, 26, 128]⟩ : Shape).Idx → EReal) : (⟨2, ![n, 325]⟩ : Shape).Idx → EReal :=
  fun y => pairDot x (y 0) (y 1)

theorem pairDots_apply {n : ℕ} (x : (⟨3, ![n, 26, 128]⟩ : Shape).Idx → EReal) (b : Fin n) (p : Fin 325) :
    pairDots x (ix2 b p) = pairDot x b p := rfl

end Cert.PairSpec

end
-- ==== Proof.PairGram.lean ====
/-
  The batched product of a chunk of 128 batch rows with itself, contracted over the embedding axis: entry
  (b, i, j) is the inner product of fields i and j of batch row b. The accumulator is the zero constant, so
  at the extended reals the entry is exactly the sum of the 128 products.
-/
import proofs.«154298_g12421045420591_cont_fleet_442_16_alg».proof.KernelIdeal
import Idealize.ShloMosaic.PureOps.Ideal.Laws
import Idealize.ShloMosaic.Lib.ValueIdx

noncomputable section

namespace Cert.KernelIdeal.PairGram

open Cert.KernelIdeal Idealize.ShloMosaic Idealize.ShloMosaic.ValueIdx

variable [Cert.KernelIdeal.Facts]

/-- The contraction index of the batched product is one coordinate below 128. -/
abbrev contr128 : dot_S128x26x128_S128x26x128_S128x26x26_2_2_1_1_0_0.contr.Idx ≃ Fin 128 :=
  contrEquiv1 dot_S128x26x128_S128x26x128_S128x26x26_2_2_1_1_0_0 128 rfl rfl

/-- Entry (b, i, j) of the chunk's product with itself is ∑_d v(b, i, d) · v(b, j, d). -/
theorem gram_apply (v : FVec Ideal S128x26x128 .f32) (b : Fin 128) (i j : Fin 26) :
    matmul dot_S128x26x128_S128x26x128_S128x26x26_2_2_1_1_0_0 none v v (constant S128x26x26 .f32 0x00000000#32) (ix3 b i j)
      = ∑ d : Fin 128, v (ix3 b i d) * v (ix3 b j d) := by
  show FloatOps.matmul _ none v v (constant S128x26x26 .f32 0x00000000#32) (ix3 b i j) = _
  rw [Ideal.matmul_constant_zero_apply, ← Equiv.sum_comp contr128.symm]
  refine Finset.sum_congr rfl fun d _ => ?_
  have hl : dot_S128x26x128_S128x26x128_S128x26x26_2_2_1_1_0_0.lhsIdx (ix3 b i j) (contr128.symm d) = ix3 b i d := by
    funext a
    match a with
    | ⟨0, _⟩ => rfl
    | ⟨1, _⟩ => rfl
    | ⟨2, _⟩ =>
      exact Fin.ext ((DotDims.lhsIdx_val_of_single dot_S128x26x128_S128x26x128_S128x26x26_2_2_1_1_0_0 (cl := (2 : Fin 3)) rfl (ix3 b i j) (contr128.symm d)).trans
        (contrEquiv1_symm_val dot_S128x26x128_S128x26x128_S128x26x26_2_2_1_1_0_0 128 rfl rfl d))
  have hr : dot_S128x26x128_S128x26x128_S128x26x26_2_2_1_1_0_0.rhsIdx (ix3 b i j) (contr128.symm d) = ix3 b j d := by
    funext a
    match a with
    | ⟨0, _⟩ => rfl
    | ⟨1, _⟩ => rfl
    | ⟨2, _⟩ =>
      exact Fin.ext ((DotDims.rhsIdx_val_of_single dot_S128x26x128_S128x26x128_S128x26x26_2_2_1_1_0_0 (cr := (2 : Fin 3)) rfl (ix3 b i j) (contr128.symm d)).trans
        (contrEquiv1_symm_val dot_S128x26x128_S128x26x128_S128x26x26_2_2_1_1_0_0 128 rfl rfl d))
  rw [hl, hr]

end Cert.KernelIdeal.PairGram

end
-- ==== Proof.PairSlice.lean ====
/-
  A strip of one row of a stack of square matrices, read as a matrix: taking, from X of shape [n, r, c], the
  entries (·, i, o … o + w − 1) as an [n, 1, w] array and dropping the unit axis gives the [n, w] matrix whose
  entry (b, k) is X(b, i, o + k).
-/
import Idealize.ShloMosaic.Lib.Pipeline.Value
import Idealize.ShloMosaic.Lib.ValueIdx

namespace Cert.PairSlice

open Idealize.ShloMosaic Idealize.ShloMosaic.ValueIdx

variable {α : Type}

/-- Entry (b, k) of the reshaped strip is the source at (b, ri, ci), where ri is the strip's row and ci = o + k. -/
theorem strip_apply {n r c w : ℕ} (i o : ℕ) (X : (⟨3, ![n, r, c]⟩ : Shape).Idx → α)
    (hs : (⟨3, ![n, r, c]⟩ : Shape).Slices ![0, i, o] ⟨3, ![n, 1, w]⟩)
    (hc : (⟨3, ![n, 1, w]⟩ : Shape).ShapeCasts ⟨2, ![n, w]⟩)
    (b : Fin n) (k : Fin w) (ri : Fin r) (ci : Fin c) (hri : ri.val = i) (hci : ci.val = o + k.val) :
    shapeCast ⟨2, ![n, w]⟩ (extractStridedSlice ⟨3, ![n, 1, w]⟩ ![0, i, o] X hs) hc (ix2 b k) = X (ix3 b ri ci) := by
  rw [shapeCast_apply _ hc (ix2 b k) (ix3 b (0 : Fin 1) k) (by
    rw [Shape.rowMajor_val_three, Shape.rowMajor_val_two]
    show (b.val * 1 + 0) * w + k.val = b.val * w + k.val
    rw [Nat.mul_one, Nat.add_zero])]
  exact extractStridedSlice_apply _ _ hs _ _ (fun ax => by
    match ax with
    | ⟨0, _⟩ => exact (Nat.zero_add _).symm
    | ⟨1, _⟩ => exact hri.trans (Nat.add_zero _).symm
    | ⟨2, _⟩ => exact hci)

end Cert.PairSlice
-- ==== Proof.PairPiece.lean ====
/-
  One stored piece. The body cuts its 512 batch rows into chunks of 128; for a chunk starting at row r0 it forms
  the chunk's product with itself (all 26 × 26 field inner products of each batch row) and stores, for each
  smaller field i, the strip (·, i, i+1 … 25) at rows r0 … r0+127 and columns rowStart i … rowStart i + 24 − i.
  Entry (b, k) of that strip is the inner product of fields i and i+1+k of batch row r0+b, and column
  rowStart i + k is the pair (i, i+1+k): so the piece holds the specification's values where it is placed.
-/
import proofs.«154298_g12421045420591_cont_fleet_442_16_alg».proof.Proof.PairSpec
import proofs.«154298_g12421045420591_cont_fleet_442_16_alg».proof.Proof.PairGram
import proofs.«154298_g12421045420591_cont_fleet_442_16_alg».proof.Proof.PairSlice
import Idealize.ShloMosaic.Lib.WholeRead

noncomputable section

namespace Cert.KernelIdeal.PairPiece

open Cert.KernelIdeal Cert.PairSpec Cert.PairSlice Cert.KernelIdeal.PairGram
open Idealize.ShloMosaic Idealize.ShloMosaic.ValueIdx

variable [Cert.KernelIdeal.Facts]

/-- The strip of row `i` of the product of a chunk `v` with itself, at (b, k), is pair (i, i+1+k)'s inner product in
    the block `x0` at the batch row the chunk's row `b` came from. -/
theorem strip_gram_apply {w : ℕ} (x0 : FVec Ideal S512x26x128 .f32) (v : FVec Ideal S128x26x128 .f32) (r0 : ℕ)
    (hv : ∀ (b : Fin 128) (f : Fin 26) (d : Fin 128) (yb : Fin 512), yb.val = r0 + b.val → v (ix3 b f d) = x0 (ix3 yb f d))
    (i o : ℕ) (hi : i < 25) (ho : o = i + 1) (hw : w = 25 - i)
    (hs : S128x26x26.Slices ![0, i, o] ⟨3, ![128, 1, w]⟩)
    (hc : (⟨3, ![128, 1, w]⟩ : Shape).ShapeCasts ⟨2, ![128, w]⟩)
    (b : Fin 128) (k : Fin w) (yb : Fin 512) (yp : Fin 325) (hyb : yb.val = r0 + b.val) (hyp : yp.val = rowStart i + k.val) :
    shapeCast ⟨2, ![128, w]⟩ (extractStridedSlice ⟨3, ![128, 1, w]⟩ ![0, i, o]
        (matmul dot_S128x26x128_S128x26x128_S128x26x26_2_2_1_1_0_0 none v v (constant S128x26x26 .f32 0x00000000#32)) hs) hc (ix2 b k)
      = pairDot x0 yb yp := by
  subst hw ho
  have hk : k.val < 25 - i := k.isLt
  obtain ⟨hrow, hcol⟩ := pair_at ⟨i, hi⟩ ⟨k.val, by omega⟩ hk
  rw [strip_apply i (i + 1) _ hs hc b k ⟨i, by omega⟩ ⟨i + 1 + k.val, by omega⟩ rfl rfl, gram_apply]
  unfold pairDot
  refine Finset.sum_congr rfl fun d _ => ?_
  have e1 : pairRow yp = ⟨i, by omega⟩ := Fin.ext (by show pairRowN yp.val = i; rw [hyp]; exact hrow)
  have e2 : pairCol yp = ⟨i + 1 + k.val, by omega⟩ := Fin.ext (by show pairColN yp.val = i + 1 + k.val; rw [hyp]; exact hcol)
  rw [e1, e2, hv b _ d yb hyb, hv b _ d yb hyb]

/-- The same for the piece as the body stores it: the chunk is the block's rows r0 … r0+127 read through the whole
    staging buffer, and the piece sits at rows r0 …, columns off = rowStart i … of the 512 × 325 output block. -/
theorem piece_eq {w : ℕ} (x0 : Vec Ideal S512x26x128 .f32) (arg1 : Memref sig .tc .vmem S512x26x128 .f32) (harg1 : arg1.IsWhole)
    (r0 off : ℕ) (inb3 : ∀ a, (![r0, 0, 0] : Fin 3 → ℕ) a + S128x26x128.size a ≤ S512x26x128.size a)
    (inb2 : ∀ a, (![r0, off] : Fin 2 → ℕ) a + (![128, w] : Fin 2 → ℕ) a ≤ S512x325.size a)
    (i o : ℕ) (hi : i < 25) (ho : o = i + 1) (hw : w = 25 - i) (hoff : off = rowStart i)
    (hs : S128x26x26.Slices ![0, i, o] ⟨3, ![128, 1, w]⟩)
    (hc : (⟨3, ![128, 1, w]⟩ : Shape).ShapeCasts ⟨2, ![128, w]⟩)
    (x : (Rect.unit (s := S512x325) ![r0, off] ![128, w] inb2).shape.Idx) :
    shapeCast ⟨2, ![128, w]⟩ (extractStridedSlice ⟨3, ![128, 1, w]⟩ ![0, i, o]
        (matmul (F := Ideal) (φ₁ := .f32) (φ₂ := .f32) dot_S128x26x128_S128x26x128_S128x26x26_2_2_1_1_0_0 none
          (View.readAt (Elt Ideal) arg1.view (Rect.unit (s := S512x26x128) ![r0, 0, 0] S128x26x128.size inb3).toLoadRect (harg1.unread x0))
          (View.readAt (Elt Ideal) arg1.view (Rect.unit (s := S512x26x128) ![r0, 0, 0] S128x26x128.size inb3).toLoadRect (harg1.unread x0))
          (constant S128x26x26 .f32 0x00000000#32)) hs) hc x
      = pairDots x0 ((Rect.unit (s := S512x325) ![r0, off] ![128, w] inb2).emb x) := by
  obtain ⟨b, k, rfl⟩ : ∃ (b : Fin 128) (k : Fin w), x = ix2 b k := ⟨x 0, x 1, eq_ix2 x⟩
  have h0 := inb3 0
  have hb : r0 + b.val < 512 := by
    have : r0 + 128 ≤ 512 := h0
    omega
  refine (strip_gram_apply x0 _ r0 (fun b' f d yb hyb => ?_) i o hi ho hw hs hc b k
    ((Rect.unit (s := S512x325) ![r0, off] ![128, w] inb2).emb (ix2 b k) 0)
    ((Rect.unit (s := S512x325) ![r0, off] ![128, w] inb2).emb (ix2 b k) 1) ?_ ?_)
  · rw [Memref.IsWhole.readAt_unread]
    refine congrArg x0 (funext fun a => Fin.ext ?_)
    match a with
    | ⟨0, _⟩ => show r0 + 1 * b'.val = yb.val; rw [Nat.one_mul]; exact hyb.symm
    | ⟨1, _⟩ => show 0 + 1 * f.val = f.val; rw [Nat.one_mul, Nat.zero_add]
    | ⟨2, _⟩ => show 0 + 1 * d.val = d.val; rw [Nat.one_mul, Nat.zero_add]
  · show r0 + 1 * b.val = r0 + b.val; rw [Nat.one_mul]
  · show off + 1 * k.val = rowStart i + k.val; rw [Nat.one_mul, hoff]

end Cert.KernelIdeal.PairPiece

end
-- ==== Proof.PairBlock.lean ====
/-
  What one grid point leaves in its 512 × 325 output block. The body writes the block in 100 pieces (4 chunks of
  128 batch rows × 25 strips, one strip per smaller field); the pieces cover the block, and each holds the
  specification's values where it sits, so the block read back is the specification applied to the 512-row input
  block: entry (b, p) is pair p's inner product in batch row b of the block.
-/
import proofs.«154298_g12421045420591_cont_fleet_442_16_alg».proof.Proof.Gen.KernelIdeal.Frame
import proofs.«154298_g12421045420591_cont_fleet_442_16_alg».proof.Proof.PairPiece

set_option maxRecDepth 16384

noncomputable section

namespace Cert.KernelIdeal.PairBlock

open Cert.KernelIdeal Cert.KernelIdeal.Gen Cert.PairSpec Cert.KernelIdeal.PairPiece
open Idealize.ShloMosaic Idealize.ShloMosaic.TcCoe Idealize.ShloMosaic.Tactic
open Idealize.SL Idealize.SL.Sem

/-- Every piece the body's run found agrees with the specification of the input block on the piece's rectangle. -/
theorem pieces_agree (c : Dev nD) (i : grid0.Coords) (arg1 : Memref sig .tc .vmem S512x26x128 .f32) (harg1 : arg1.IsWhole)
    (arg2 : Memref sig .tc .vmem S512x325 .f32) (harg2 : arg2.IsWhole) (x0 : Vec Ideal S512x26x128 .f32) :
    ∀ p ∈ (kernelRun0_A (F := Ideal) c i arg1 harg1 arg2 harg2 x0).1, ∀ x : p.1.shape.Idx, p.2 x = pairDots x0 (p.1.emb x) := by
  unfold kernelRun0_A
  dsimp only
  sl_unfold_words
  repeat' (first
    | exact List.forall_mem_nil _
    | refine List.forall_mem_cons.mpr ⟨?_, ?_⟩)
  all_goals (intro x; exact piece_eq x0 arg1 harg1 _ _ (by decide) (by decide) _ _ (by decide) (by rfl) (by rfl) (by rfl) (by decide) (by decide) x)

/-- The output block after the body: the specification of the input block. -/
theorem out_block (c : Dev nD) (i : grid0.Coords) (arg1 : Memref sig .tc .vmem S512x26x128 .f32) (harg1 : arg1.IsWhole)
    (arg2 : Memref sig .tc .vmem S512x325 .f32) (harg2 : arg2.IsWhole) (x0 : Vec Ideal S512x26x128 .f32) :
    out0_A_1 (F := Ideal) c i arg1 harg1 arg2 harg2 x0 = pairDots x0 := by
  funext y
  unfold out0_A_1
  exact View.read_writes_apply_of_pieces VO0_1 _ (pairDots x0) _ (pieces_agree c i arg1 harg1 arg2 harg2 x0) y
    (cover0_A_1 c i arg1 harg1 arg2 harg2 x0 y)

end Cert.KernelIdeal.PairBlock

end
-- ==== Proof.PairArray.lean ====
/-
  From blocks to the whole array. Grid point t handles batch rows 512·t … 512·t + 511: its input block is those rows
  of the argument (all 26 fields, all 128 coordinates) and its output block is those rows of the result (all 325
  pairs). The specification of a row depends on that row alone, so the specification of the input block IS the
  block of the specification of the whole argument; the eight output blocks tile the result's 4096 rows; hence
  the result array ends holding the specification of the argument array.
-/
import proofs.«154298_g12421045420591_cont_fleet_442_16_alg».proof.Proof.Gen.KernelIdeal.Value
import proofs.«154298_g12421045420591_cont_fleet_442_16_alg».proof.Proof.PairBlock

set_option maxRecDepth 16384

noncomputable section

namespace Cert.KernelIdeal.PairArray

open Cert.KernelIdeal Cert.KernelIdeal.Gen Cert.PairSpec Cert.KernelIdeal.PairBlock
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A pair's inner product in a batch row depends only on that row's 26 × 128 numbers. -/
theorem pairDot_congr {n n' : ℕ} (x : (⟨3, ![n, 26, 128]⟩ : Shape).Idx → EReal) (x' : (⟨3, ![n', 26, 128]⟩ : Shape).Idx → EReal)
    (b : Fin n) (b' : Fin n') (p p' : Fin 325) (hp : p = p')
    (h : ∀ (f : Fin 26) (d : Fin 128), x (ix3 b f d) = x' (ix3 b' f d)) : pairDot x b p = pairDot x' b' p' := by
  subst hp
  unfold pairDot
  exact Finset.sum_congr rfl fun d _ => by rw [h, h]

/-- The index maps over the 8 grid points: input and output blocks move together along the batch axis and stay
    at block 0 on every other axis. -/
theorem idx_facts : ∀ t : Fin cfg0.N,
    win0_0.index t (0 : Fin 3) = win0_1.index t (0 : Fin 2) ∧ win0_0.index t (1 : Fin 3) = 0 ∧ win0_0.index t (2 : Fin 3) = 0
    ∧ win0_1.index t (1 : Fin 2) = 0 ∧ win0_1.index t (0 : Fin 2) ≤ 7 :=
  (by decide +kernel : ∀ t : Fin grid0.N, _)

/-- Every one of the 8 row blocks of the result is some grid point's. -/
theorem idx_onto : ∀ q : Fin 8, ∃ t : Fin cfg0.N, win0_1.index t = ![q.val, 0] :=
  (by decide +kernel : ∀ q : Fin 8, ∃ t : Fin grid0.N, win0_1.index t = ![q.val, 0])

/-- What grid point t writes back is block t of the specification of the whole argument array. -/
theorem flushed_eq (c : Dev nD) (t : Fin cfg0.N) :
    (dats m 0 c).flushed 1 t = ((cfg0.win 1).blk t).view.read (Elt Ideal) (pairDots (V m c main_arg0)) := by
  rw [Cert.KernelIdeal.Value.flushed1_A, out_block]
  obtain ⟨e0, e1, e2, e3, e4⟩ := idx_facts t
  funext j
  show pairDot (iblk m c 0 t) (j 0) (j 1)
    = pairDot (V m c main_arg0) ((((cfg0.win 1).blk t).view.emb j) 0) ((((cfg0.win 1).blk t).view.emb j) 1)
  refine pairDot_congr _ _ _ _ _ _ (Fin.ext ?_) (fun f d => ?_)
  · show (j 1).val = win0_1.index t (1 : Fin 2) * 325 + 1 * (j 1).val
    omega
  · show V m c main_arg0 (((cfg0.win 0).blk t).view.emb (ix3 (j 0) f d)) = V m c main_arg0 _
    refine congrArg (V m c main_arg0) (funext fun a => Fin.ext ?_)
    match a with
    | ⟨0, _⟩ =>
      show win0_0.index t (0 : Fin 3) * 512 + 1 * (j 0).val = win0_1.index t (0 : Fin 2) * 512 + 1 * (j 0).val
      omega
    | ⟨1, _⟩ =>
      show win0_0.index t (1 : Fin 3) * 26 + 1 * f.val = f.val
      omega
    | ⟨2, _⟩ =>
      show win0_0.index t (2 : Fin 3) * 128 + 1 * d.val = d.val
      omega

/-- An index of the result is in point t's block iff each coordinate is in the block's range on its axis. -/
theorem mem_blk (t : Fin cfg0.N) (i : S4096x325.Idx) :
    i ∈ ((cfg0.win 1).blk t).view.set ↔ ∀ a : Fin 2, win0_1.index t a * S512x325.size a ≤ (i a).val
      ∧ (i a).val < win0_1.index t a * S512x325.size a + S512x325.size a := by
  show i ∈ ((View.whole main_v0).slice (win0_1.rect t)).set ↔ _
  rw [View.set_slice_whole, Rect.mem_set_unit]
  exact Iff.rfl

/-- Every index of the result lies in the block of the grid point that handles its batch row. -/
theorem covered (i : S4096x325.Idx) :
    ∃ t : Fin cfg0.N, (cfg0.win 1).flush t = true ∧ i ∈ ((cfg0.win 1).blk t).view.set := by
  have hi0 : (i 0).val < 4096 := (i 0).isLt
  have hi1 : (i 1).val < 325 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 325 ≤ (i 1).val ∧ (i 1).val < win0_1.index t (1 : Fin 2) * 325 + 325
    omega

/-- The result array after the run: the specification of the argument array. -/
theorem final (c : Dev nD) :
    (dats m 0 c).arrAt 1 cfg0.N = pairDots (m ((c : Thread nD τ).loc main_arg0)) :=
  (dats m 0 c).arrAt_eq_of_cover 1 (pairDots (V m c main_arg0)) (fun t _ => flushed_eq m c t) covered

/-- The kernel's run: every weakly fair execution terminates with the result at the specification of the argument
    and the argument unchanged. -/
theorem run : θ_run defs (onTc (τ := τ) (main (F := Ideal))) ⟨m, fun _ => 0, ρ⟩ fun r => ∀ c : Dev nD,
      r.2.mem ((c : Thread nD τ).loc main_v0) = pairDots (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.PairArray

end
-- ==== Proof.RefRun.lean ====
/-
  The reference program's run, written out. @main is a straight line of 51 host operations once its two calls of
  @_take (23 operations each, the call of @_where inside being one select) are opened at their call sites: the two
  index tables, the two takes, the product, the zero and the sum over the last axis. Every weakly fair execution
  ends with the result buffer at the composed value of the argument array and the argument unchanged.

  One take of the array `x` at an index table `idx`: a negative index has 26 added (`normIdx`), the mask says the
  index is in 0 … 25 (`maskOf`), the gather reads along axis 1, and where the mask fails the value is the
  constant with pattern 0x7FC00000 (`takeVal`). The result is the sum over the last axis of the product of the two
  takes, from the zero constant (`refOut`).
-/
import proofs.«154298_g12421045420591_cont_fleet_442_16_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- An index table with 26 added to its negative entries, as a column. -/
def normIdx (idx : IVec S325 32) : IVec S325x1 32 :=
  broadcastInDim S325x1 ![0] bcast_S325_S325x1_0
    (select (cmpi .slt idx (broadcastInDim S325 ![] bcast_S_S325 (constantI S_ 32 0#32)))
      (addi idx (broadcastInDim S325 ![] bcast_S_S325 (constantI S_ 32 26#32))) idx)

/-- Per entry of the column: is it in 0 … 25. -/
def maskOf (v : IVec S325x1 32) : IVec S325 1 :=
  Host.reduce IntOp.andi
    (andi (cmpi .sge v (broadcastInDim S325x1 ![] bcast_S_S325x1 (constantI S_ 32 0#32)))
      (cmpi .sle v (broadcastInDim S325x1 ![0, 1] bcast_S1x1_S325x1_0_1 (broadcastInDim S1x1 ![1] bcast_S1_S1x1_1 (constantI S1 32 25#32)))))
    (constantI S_ 1 1#1) reducesTo_S325x1_S325_d1 h_S_

/-- One take of `x` along axis 1 at the index table `idx`. -/
def takeVal (x : FVec F S4096x26x128 .f32) (idx : IVec S325 32) : FVec F S4096x325x128 .f32 :=
  select (broadcastInDim S4096x325x128 ![1] bcast_S325_S4096x325x128_1 (maskOf (normIdx idx)))
    (Host.gather gather_S4096x26x128_S325x1_S4096x325x128_02_1_n_n_1_1_40961128 x (normIdx idx))
    (broadcastInDim S4096x325x128 ![] bcast_S_S4096x325x128 (constant S_ .f32 0x7FC00000#32))

/-- The reference's value: the sum over the last axis of the product of the two takes. -/
def refOut (x : FVec F S4096x26x128 .f32) : FVec F S4096x325 .f32 :=
  Host.reduceAdd (mulf (takeVal x (fun i => lit0 (S325.rowMajor i))) (takeVal x (fun i => lit1 (S325.rowMajor i))))
    (constant S_ .f32 0x00000000#32) reducesTo_S4096x325x128_S4096x325_d2 h_S_

/-- @main's 51 operations, in order, the calls opened at their call sites over the calls' buffer records. -/
abbrev ops : List (HloOp τ sig (Elt F)) :=
  [ nullary main_c (fun i => lit0 (S325.rowMajor i)),
    nullary main_c_0 (fun i => lit1 (S325.rowMajor i)),
    TRef.nullary main_call0.c (constantI S_ 32 0#32),
    TRef.unary main_call0.c main_call0.v0 (broadcastInDim S325 ![] bcast_S_S325),
    TRef.binary (.of main_c) main_call0.v0 main_call0.v1 (cmpi .slt),
    TRef.nullary main_call0.c_0 (constantI S_ 32 26#32),
    TRef.unary main_call0.c_0 main_call0.v2 (broadcastInDim S325 ![] bcast_S_S325),
    TRef.binary (.of main_c) main_call0.v2 main_call0.v3 addi,
    TRef.ternary main_call0.v1 main_call0.v3 (.of main_c) main_call0.call0.v0 select,
    TRef.unary main_call0.call0.v0 main_call0.v5 (broadcastInDim S325x1 ![0] bcast_S325_S325x1_0),
    TRef.nullary main_call0.c_1 (constantI S1 32 25#32),
    TRef.nullary main_call0.c_2 (constantI S_ 32 0#32),
    TRef.unary main_call0.c_2 main_call0.v6 (broadcastInDim S325x1 ![] bcast_S_S325x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S325x1 ![0, 1] bcast_S1x1_S325x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S325x1_S325_d1 h_S_),
    TRef.binary (.of main_arg0) main_call0.v5 main_call0.v13 (fun x i => Host.gather gather_S4096x26x128_S325x1_S4096x325x128_02_1_n_n_1_1_40961128 x i),
    TRef.unary main_call0.v12 main_call0.v14 (broadcastInDim S4096x325x128 ![1] bcast_S325_S4096x325x128_1),
    TRef.nullary main_call0.cst (constant S_ .f32 0x7FC00000#32),
    TRef.unary main_call0.cst main_call0.v15 (broadcastInDim S4096x325x128 ![] bcast_S_S4096x325x128),
    TRef.ternary main_call0.v14 main_call0.v13 main_call0.v15 main_call0.v16 select,
    TRef.nullary main_call1.c (constantI S_ 32 0#32),
    TRef.unary main_call1.c main_call1.v0 (broadcastInDim S325 ![] bcast_S_S325),
    TRef.binary (.of main_c_0) main_call1.v0 main_call1.v1 (cmpi .slt),
    TRef.nullary main_call1.c_0 (constantI S_ 32 26#32),
    TRef.unary main_call1.c_0 main_call1.v2 (broadcastInDim S325 ![] bcast_S_S325),
    TRef.binary (.of main_c_0) main_call1.v2 main_call1.v3 addi,
    TRef.ternary main_call1.v1 main_call1.v3 (.of main_c_0) main_call1.call0.v0 select,
    TRef.unary main_call1.call0.v0 main_call1.v5 (broadcastInDim S325x1 ![0] bcast_S325_S325x1_0),
    TRef.nullary main_call1.c_1 (constantI S1 32 25#32),
    TRef.nullary main_call1.c_2 (constantI S_ 32 0#32),
    TRef.unary main_call1.c_2 main_call1.v6 (broadcastInDim S325x1 ![] bcast_S_S325x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S325x1 ![0, 1] bcast_S1x1_S325x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S325x1_S325_d1 h_S_),
    TRef.binary (.of main_arg0) main_call1.v5 main_call1.v13 (fun x i => Host.gather gather_S4096x26x128_S325x1_S4096x325x128_02_1_n_n_1_1_40961128 x i),
    TRef.unary main_call1.v12 main_call1.v14 (broadcastInDim S4096x325x128 ![1] bcast_S325_S4096x325x128_1),
    TRef.nullary main_call1.cst (constant S_ .f32 0x7FC00000#32),
    TRef.unary main_call1.cst main_call1.v15 (broadcastInDim S4096x325x128 ![] bcast_S_S4096x325x128),
    TRef.ternary main_call1.v14 main_call1.v13 main_call1.v15 main_call1.v16 select,
    binary main_v0 main_v1 main_v2 (mulf : (⟨S4096x325x128, .f32⟩ : BufTy).Contents (Elt F) → (⟨S4096x325x128, .f32⟩ : BufTy).Contents (Elt F) → (⟨S4096x325x128, .f32⟩ : BufTy).Contents (Elt F)),
    nullary main_cst (constant S_ .f32 0x00000000#32),
    binary main_v2 main_cst main_v3 ((fun x v => Host.reduceAdd x v reducesTo_S4096x325x128_S4096x325_d2 h_S_) : (⟨S4096x325x128, .f32⟩ : BufTy).Contents (Elt F) → (⟨S_, .f32⟩ : BufTy).Contents (Elt F) → (⟨S4096x325, .f32⟩ : BufTy).Contents (Elt F)) ]

-- fifty-one binds re-associated
set_option maxRecDepth 4096 in
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub ..⟩

attribute [local irreducible] Host.reduce Host.gather Host.reduceAdd broadcastInDim in
set_option maxRecDepth 8192 in
/-- The fold of the 51 operations at the result buffer is the composed value of the argument buffer's contents. -/
theorem out_eq (V : Valuation τ sig (Elt F)) :
    after ops V (main_v3 : DevRef τ sig) = refOut (V (main_arg0 : DevRef τ sig)) := by
  unfold refOut takeVal maskOf normIdx
  after_results_simp
  rfl

set_option maxRecDepth 8192 in
/-- No operation writes the argument buffer. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result buffer at `refOut` of the argument's launch contents and the argument unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v3).trans (out_eq _), (h c main_arg0).trans (arg0_eq _)⟩)
    (run_seq scopedRefs_eq scopedSems_eq defs main (fun _ => ops) main_eq (fun _ => ops_sub) m ρ)

end Cert.ReferenceIdeal.RefValue

end
-- ==== Proof.RefTables.lean ====
/-
  The two index tables of the reference, entry by entry. Table 0 lists the smaller field of each of the 325 pairs,
  table 1 the larger. Every entry is a word between 0 and 25: it is not negative (so the take leaves it as it is),
  it passes both bounds of the take's mask, and read as a signed number it is the pair's smaller (larger) field.
-/
import proofs.«154298_g12421045420591_cont_fleet_442_16_alg».proof.ReferenceIdeal
import proofs.«154298_g12421045420591_cont_fleet_442_16_alg».proof.Proof.PairSpec

namespace Cert.ReferenceIdeal.RefValue

open Cert.ReferenceIdeal Idealize.ShloMosaic Idealize.ShloMosaic.ValueIdx

/-- What the take asks of one entry `t` of an index table that should name field `r`: not negative, at least 0,
    at most 25, and `r` when read as a signed number. -/
def EntryOk (t : BitVec 32) (r : ℕ) : Prop :=
  IntOp.cmpi .slt t 0#32 = 0#1 ∧ IntOp.cmpi .sge t 0#32 = 1#1 ∧ IntOp.cmpi .sle t 25#32 = 1#1 ∧ t.toInt.toNat = r

instance (t : BitVec 32) (r : ℕ) : Decidable (EntryOk t r) := by unfold EntryOk; infer_instance

/-- Every entry of table 0 is in range and is the pair's smaller field. -/
theorem lit0_ok : ∀ p : Fin 325, EntryOk (lit0 p) (Cert.PairSpec.pairRowN p.val) := by decide +kernel

/-- Every entry of table 1 is in range and is the pair's larger field. -/
theorem lit1_ok : ∀ p : Fin 325, EntryOk (lit1 p) (Cert.PairSpec.pairColN p.val) := by decide +kernel

/-- The row-major position of a rank-1 index is its coordinate. -/
theorem rowMajor_ix1 (p : Fin 325) : S325.rowMajor (ix1 p) = p :=
  Fin.ext (Shape.rowMajor_val_one (ix1 p))

/-- Table 0 as the array the program holds, read at `p`. -/
theorem tab0_ok (p : Fin 325) : EntryOk ((fun i : S325.Idx => lit0 (S325.rowMajor i)) (ix1 p)) (Cert.PairSpec.pairRowN p.val) := by
  show EntryOk (lit0 (S325.rowMajor (ix1 p))) _
  rw [rowMajor_ix1]; exact lit0_ok p

/-- Table 1 as the array the program holds, read at `p`. -/
theorem tab1_ok (p : Fin 325) : EntryOk ((fun i : S325.Idx => lit1 (S325.rowMajor i)) (ix1 p)) (Cert.PairSpec.pairColN p.val) := by
  show EntryOk (lit1 (S325.rowMajor (ix1 p))) _
  rw [rowMajor_ix1]; exact lit1_ok p

end Cert.ReferenceIdeal.RefValue
-- ==== Proof.RefTake.lean ====
/-
  One take, read at one index. For an index table whose every entry is a word between 0 and 25, the take of the
  array `x` along axis 1 at (b, p, d) is `x` at (b, r, d), where r is entry p read as a signed number: no entry is
  negative, so none has 26 added; every entry passes both bounds, so the mask is 1 everywhere and the select keeps
  the gathered value; and the gather reads axis 1 at the entry, clamped into 0 … 25, the other two coordinates as
  they are.
-/
import proofs.«154298_g12421045420591_cont_fleet_442_16_alg».proof.Proof.RefRun
import proofs.«154298_g12421045420591_cont_fleet_442_16_alg».proof.Proof.RefTables
import Idealize.ShloMosaic.Lib.ValueIdx
import Idealize.ShloMosaic.Lib.Pipeline.Value
import Idealize.ShloMosaic.PureOps.Reduce

namespace Cert.ReferenceIdeal.RefValue

open Cert.ReferenceIdeal Cert.ReferenceIdeal.Gen Idealize.ShloMosaic Idealize.ShloMosaic.ValueIdx

variable {F : FTy → Type} [FloatOps F]

/-- The index column at (q, u) is entry q of the table, when that entry is not negative. -/
theorem normIdx_apply (idx : IVec S325 32) (q : Fin 325) (u : Fin 1) {r : ℕ} (h : EntryOk (idx (ix1 q)) r) :
    normIdx idx (ix2 q u) = idx (ix1 q) := by
  unfold normIdx
  refine (broadcastInDim_apply _ _ _ (ix2 q u) (ix1 q) (fun a => match a with | ⟨0, _⟩ => rfl)).trans ?_
  show Scalar.select (IntOp.cmpi .slt (idx (ix1 q)) 0#32) _ (idx (ix1 q)) = _
  rw [h.1, select_zero]

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_ones f l fun n hn => h n (List.mem_cons_of_mem _ hn)

/-- The mask is 1 at every entry, when every entry of the table is in range. -/
theorem maskOf_apply (idx : IVec S325 32) (rs : Fin 325 → ℕ) (h : ∀ q, EntryOk (idx (ix1 q)) (rs q)) (j : S325.Idx) :
    maskOf (normIdx idx) j = 1#1 := by
  unfold maskOf
  rw [Host.reduce_eq_foldl]
  refine foldl_andi_ones _ _ fun i _ => ?_
  obtain ⟨q, u, rfl⟩ : ∃ (q : Fin 325) (u : Fin 1), i = ix2 q u := ⟨i 0, i 1, eq_ix2 i⟩
  show IntOp.andi (IntOp.cmpi .sge (normIdx idx (ix2 q u)) 0#32) (IntOp.cmpi .sle (normIdx idx (ix2 q u)) 25#32) = 1#1
  rw [normIdx_apply idx q u (h q), (h q).2.1, (h q).2.2.1]; rfl

/-- The start-index position the gather reads for result index (b, p, d): row p of the index column. -/
theorem siIdx_eq (b : Fin 4096) (p : Fin 325) (d : Fin 128) (c : Fin gather_S4096x26x128_S325x1_S4096x325x128_02_1_n_n_1_1_40961128.startIndexMap.length) :
    gather_S4096x26x128_S325x1_S4096x325x128_02_1_n_n_1_1_40961128.siIdx (ix3 b p d) c = ix2 p 0 := by
  funext a
  refine Fin.ext ?_
  match a with
  | ⟨0, _⟩ => rfl
  | ⟨1, _⟩ =>
    have h1 : gather_S4096x26x128_S325x1_S4096x325x128_02_1_n_n_1_1_40961128.startIndexMap.length = 1 := rfl
    show c.val = 0
    have := c.isLt; omega

set_option maxRecDepth 4096 in
/-- The operand index the gather reads for result index (b, p, d): (b, the clamped entry p, d). -/
theorem operandIdx_eq (v : IVec S325x1 32) (b : Fin 4096) (p : Fin 325) (d : Fin 128) :
    gather_S4096x26x128_S325x1_S4096x325x128_02_1_n_n_1_1_40961128.operandIdx (ix3 b p d) v = ix3 b ⟨min (v (ix2 p 0)).toInt.toNat 25, by omega⟩ d := by
  funext a
  refine Fin.ext ?_
  match a with
  | ⟨0, h0⟩ =>
    show gather_S4096x26x128_S325x1_S4096x325x128_02_1_n_n_1_1_40961128.start (ix3 b p d) v ⟨0, h0⟩ + gather_S4096x26x128_S325x1_S4096x325x128_02_1_n_n_1_1_40961128.batchCoord (ix3 b p d) ⟨0, h0⟩ + gather_S4096x26x128_S325x1_S4096x325x128_02_1_n_n_1_1_40961128.offCoord (ix3 b p d) ⟨0, h0⟩ = b.val
    have hs : gather_S4096x26x128_S325x1_S4096x325x128_02_1_n_n_1_1_40961128.start (ix3 b p d) v ⟨0, h0⟩ = 0 := rfl
    have hb : gather_S4096x26x128_S325x1_S4096x325x128_02_1_n_n_1_1_40961128.batchCoord (ix3 b p d) ⟨0, h0⟩ = 0 := rfl
    have ho : gather_S4096x26x128_S325x1_S4096x325x128_02_1_n_n_1_1_40961128.offCoord (ix3 b p d) ⟨0, h0⟩ = b.val := rfl
    rw [hs, hb, ho]; omega
  | ⟨1, _⟩ =>
    show min (v (gather_S4096x26x128_S325x1_S4096x325x128_02_1_n_n_1_1_40961128.siIdx (ix3 b p d) _)).toInt.toNat 25 + 0 + 0 = min (v (ix2 p 0)).toInt.toNat 25
    rw [siIdx_eq]; rfl
  | ⟨2, h2⟩ =>
    show gather_S4096x26x128_S325x1_S4096x325x128_02_1_n_n_1_1_40961128.start (ix3 b p d) v ⟨2, h2⟩ + gather_S4096x26x128_S325x1_S4096x325x128_02_1_n_n_1_1_40961128.batchCoord (ix3 b p d) ⟨2, h2⟩ + gather_S4096x26x128_S325x1_S4096x325x128_02_1_n_n_1_1_40961128.offCoord (ix3 b p d) ⟨2, h2⟩ = d.val
    have hs : gather_S4096x26x128_S325x1_S4096x325x128_02_1_n_n_1_1_40961128.start (ix3 b p d) v ⟨2, h2⟩ = 0 := rfl
    have hb : gather_S4096x26x128_S325x1_S4096x325x128_02_1_n_n_1_1_40961128.batchCoord (ix3 b p d) ⟨2, h2⟩ = 0 := rfl
    have ho : gather_S4096x26x128_S325x1_S4096x325x128_02_1_n_n_1_1_40961128.offCoord (ix3 b p d) ⟨2, h2⟩ = d.val := rfl
    rw [hs, hb, ho]; omega

/-- The gather at (b, p, d) is the operand at (b, the clamped entry p of the index column, d). -/
theorem gather_apply {α : Type} (x : S4096x26x128.Idx → α) (v : IVec S325x1 32) (b : Fin 4096) (p : Fin 325) (d : Fin 128) :
    Host.gather gather_S4096x26x128_S325x1_S4096x325x128_02_1_n_n_1_1_40961128 x v (ix3 b p d) = x (ix3 b ⟨min (v (ix2 p 0)).toInt.toNat 25, by omega⟩ d) := by
  unfold Host.gather
  rw [operandIdx_eq]

/-- One take at (b, p, d), for a table whose entry q names field `rs q` below 26: the array at (b, rs p, d). -/
theorem takeVal_apply (x : FVec F S4096x26x128 .f32) (idx : IVec S325 32) (rs : Fin 325 → Fin 26)
    (h : ∀ q, EntryOk (idx (ix1 q)) (rs q).val) (b : Fin 4096) (p : Fin 325) (d : Fin 128) :
    takeVal x idx (ix3 b p d) = x (ix3 b (rs p) d) := by
  unfold takeVal
  rw [select_apply]
  have hm : broadcastInDim S4096x325x128 ![1] bcast_S325_S4096x325x128_1 (maskOf (normIdx idx)) (ix3 b p d) = 1#1 :=
    (broadcastInDim_apply _ _ _ (ix3 b p d) (ix1 p) (fun a => match a with | ⟨0, _⟩ => rfl)).trans
      (maskOf_apply idx (fun q => (rs q).val) h (ix1 p))
  rw [hm, select_one, gather_apply]
  refine congrArg (fun r => x (ix3 b r d)) (Fin.ext ?_)
  show min (normIdx idx (ix2 p 0)).toInt.toNat 25 = (rs p).val
  rw [normIdx_apply idx p 0 (h p), (h p).2.2.2]
  have := (rs p).isLt; omega

end Cert.ReferenceIdeal.RefValue
-- ==== Proof.RefValue.lean ====
/-
  The reference's value. At the ideal values the result entry (b, p) is the zero constant plus the sum over the 128
  positions d of the product of the two takes at (b, p, d); the first take reads field `pairRow p` and the second field
  `pairCol p` of batch row b, so the entry is the inner product of those two fields: the specification's `pairDots`.
-/
import proofs.«154298_g12421045420591_cont_fleet_442_16_alg».proof.Proof.RefRun
import proofs.«154298_g12421045420591_cont_fleet_442_16_alg».proof.Proof.RefTake
import proofs.«154298_g12421045420591_cont_fleet_442_16_alg».proof.Proof.PairSpec
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx
open Cert.PairSpec

/-- The index of the product array over result index (b, p) at position k of the summed axis is (b, p, k). -/
theorem lift_eq (hR : S4096x325x128.Reduces [2] S4096x325) (b : Fin 4096) (p : Fin 325) (k : Fin 128) :
    hR.lift (ix2 b p) k = ix3 b p k := by
  funext a
  refine Fin.ext ?_
  match a with
  | ⟨0, _⟩ => rfl
  | ⟨1, _⟩ => rfl
  | ⟨2, _⟩ => rfl

/-- The sum over the last axis of the product of two takes, at (b, p), for tables naming fields `r0 q` and `r1 q`:
    the inner product of fields `r0 p` and `r1 p` of batch row b. -/
theorem sumProd_apply (x : FVec Ideal S4096x26x128 .f32) (i0 i1 : IVec S325 32) (r0 r1 : Fin 325 → Fin 26)
    (h0 : ∀ q, EntryOk (i0 (ix1 q)) (r0 q).val) (h1 : ∀ q, EntryOk (i1 (ix1 q)) (r1 q).val) (b : Fin 4096) (p : Fin 325) :
    Host.reduceAdd (F := Ideal) (mulf (takeVal x i0) (takeVal x i1)) (constant (F := Ideal) S_ .f32 0x00000000#32)
        reducesTo_S4096x325x128_S4096x325_d2 h_S_ (ix2 b p)
      = ∑ d : Fin 128, x (ix3 b (r0 p) d) * x (ix3 b (r1 p) d) := by
  have hR : S4096x325x128.Reduces [2] S4096x325 := by decide
  refine (Ideal.hostReduceAdd_single reducesTo_S4096x325x128_S4096x325_d2 hR _ _ (ix2 b p)).trans ?_
  show Ideal.ofBits .f32 0x00000000#32 + ∑ k : Fin 128, mulf (takeVal x i0) (takeVal x i1) (hR.lift (ix2 b p) k) = _
  rw [Ideal.ofBits_zero_f32, zero_add]
  refine Finset.sum_congr rfl fun k _ => ?_
  rw [lift_eq, mulf_apply, takeVal_apply x i0 r0 h0, takeVal_apply x i1 r1 h1]

/-- The reference's value at (b, p) is pair p's inner product in batch row b. -/
theorem refOut_apply (x : FVec Ideal S4096x26x128 .f32) (b : Fin 4096) (p : Fin 325) :
    refOut (F := Ideal) x (ix2 b p) = pairDot x b p := by
  unfold refOut pairDot
  exact sumProd_apply x (fun i => lit0 (S325.rowMajor i)) (fun i => lit1 (S325.rowMajor i)) pairRow pairCol
    (fun q => tab0_ok q) (fun q => tab1_ok q) b p

/-- The reference's value is the specification's array of inner products. -/
theorem refOut_eq (x : FVec Ideal S4096x26x128 .f32) : refOut (F := Ideal) x = pairDots x := by
  funext y
  obtain ⟨b, p, rfl⟩ : ∃ (b : Fin 4096) (p : Fin 325), y = ix2 b p := ⟨y 0, y 1, eq_ix2 y⟩
  rw [refOut_apply, pairDots_apply]

/-- On every device, at the ideal values, from any memory with zero counters: every weakly fair execution of the
    reference's @main terminates with the result buffer at the array of the 325 pairs' inner products of the argument's
    launch contents, and the argument unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v3) = Cert.PairSpec.pairDots (m ((c.tc : Thread nD τ).loc main_arg0))
      ∧ r.2.mem ((c.tc : Thread nD τ).loc main_arg0) = m ((c.tc : Thread nD τ).loc main_arg0)) :=
  (θ_run _ _ _).mono (fun _ h c => ⟨(h c).1.trans (refOut_eq _), (h c).2⟩) (run_refOut m ρ)

end Cert.ReferenceIdeal.RefValue

end
-- ==== Proof.lean ====
/-
  Batched pairwise field inner products. The argument x has 4096 batch rows, each of 26 field vectors of 128
  numbers; the result has, for each batch row b and each of the 325 pairs of distinct fields (i, j), i < j, listed
  row by row, the inner product ∑_d x(b, i, d) · x(b, j, d)   (Proof/PairSpec.lean: `pairDots`).

  The kernel handles 512 batch rows per grid point, in four chunks of 128: it multiplies the chunk with itself over
  the embedding axis (every batch row's 26 × 26 matrix of field inner products, accumulated from zero) and copies
  the strictly upper triangle out strip by strip, one strip per smaller field. The reference gathers, for every
  pair, the two fields' vectors (an index table each, every entry a valid field, so the gather's range mask is
  all ones), multiplies them entry by entry and sums over the embedding axis starting from zero. Over the extended
  reals both are the same finite sum of products in the same order, with a zero added in front; nothing about the
  inputs' finiteness is used.

  Kernel side: Proof/PairGram.lean (the product read at an index), PairSlice.lean (a strip read at an index),
  PairPiece.lean (one stored piece is the specification where it sits), PairBlock.lean (the 100 pieces of a
  grid point's output block), PairArray.lean (the eight blocks tile the result). Reference side: Proof/RefTables.lean,
  RefRun.lean, RefTake.lean, RefValue.lean. Reading the kernel over the extended reals changes none of its operations,
  so the claim that relates the two readings has nothing to state.
-/
import proofs.«154298_g12421045420591_cont_fleet_442_16_alg».proof.Defs
import proofs.«154298_g12421045420591_cont_fleet_442_16_alg».proof.Proof.Gen.Kernel
import proofs.«154298_g12421045420591_cont_fleet_442_16_alg».proof.Proof.Gen.Kernel.Skeleton
import proofs.«154298_g12421045420591_cont_fleet_442_16_alg».proof.Proof.Gen.Kernel.Launch
import proofs.«154298_g12421045420591_cont_fleet_442_16_alg».proof.Proof.Gen.Kernel.Points
import proofs.«154298_g12421045420591_cont_fleet_442_16_alg».proof.Proof.Gen.Kernel.Frame
import proofs.«154298_g12421045420591_cont_fleet_442_16_alg».proof.Proof.Gen.KernelIdeal
import proofs.«154298_g12421045420591_cont_fleet_442_16_alg».proof.Proof.Gen.KernelIdeal.Skeleton
import proofs.«154298_g12421045420591_cont_fleet_442_16_alg».proof.Proof.Gen.KernelIdeal.Launch
import proofs.«154298_g12421045420591_cont_fleet_442_16_alg».proof.Proof.Gen.KernelIdeal.Points
import proofs.«154298_g12421045420591_cont_fleet_442_16_alg».proof.Proof.Gen.KernelIdeal.Frame
import proofs.«154298_g12421045420591_cont_fleet_442_16_alg».proof.Proof.Gen.KernelIdeal.Value
import proofs.«154298_g12421045420591_cont_fleet_442_16_alg».proof.Proof.Gen.ReferenceIdeal
import proofs.«154298_g12421045420591_cont_fleet_442_16_alg».proof.Proof.Gen.Pre_finite_inputs
import proofs.«154298_g12421045420591_cont_fleet_442_16_alg».proof.Proof.PairArray
import proofs.«154298_g12421045420591_cont_fleet_442_16_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument unchanged: its run, with the result's value dropped. -/
theorem frame_referenceIdeal : Cert.frame_ReferenceIdeal := fun m ρ _ =>
  (θ_run Cert.ReferenceIdeal.defs _ _).mono (fun _ h c => (h c).2) (Cert.ReferenceIdeal.RefValue.run m ρ)

/-- From memories that agree on the argument, both programs end with the result at the pairwise inner products
    of that argument. -/
theorem algebraic : Cert.algebraic_KernelIdeal_ReferenceIdeal := by
  intro m ρ m' ρ' _ hagree
  refine ⟨_, Cert.KernelIdeal.PairArray.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
